-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S1x4096 : Shape := ⟨2, ![1, 4096]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S16384x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S4096, .f32⟩
  | .local _ .vmem, ⟨4, _⟩ => ⟨S64x4096, .f32⟩
  | .local _ .vmem, ⟨5, _⟩ => ⟨S64x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  reduces_S64x4096_S4096 : S64x4096.Reduces [0] S4096
  natLt_1_32 : 1 < 32
  shapeCasts_S4096_S1x4096 : S4096.ShapeCasts S1x4096
  broadcasts_S1x4096_S64x4096 : S1x4096.Broadcasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S4096_S4096_0 : ∀ a, (![0] : Fin 1 → Nat) a + S4096.size a ≤ S4096.size a
  h_S4096 : 0 < S4096.numel
  dot_S64x4096_S4096x4096_S64x4096_1_1_0_0_n_n_wf : DotDims.WF S64x4096 S4096x4096 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S16384x4096.size a
  hwx0_3 : ∀ i : grid0.Coords, EltTy.bits .f32 = 32 ∨ (Rect.block (s := S16384x4096) S64x4096.size (cc0_transform_3 i) (hinb0_3 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S256x64x4096 : Shape := ⟨3, ![256, 64, 4096]⟩
abbrev S_ : Shape := ⟨0, ![]⟩
abbrev S256x4096 : Shape := ⟨2, ![256, 4096]⟩
abbrev S256x1x4096 : Shape := ⟨3, ![256, 1, 4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S256x64x4096, .f32⟩
  | .hbm, ⟨4, _⟩ => ⟨S256x64x4096, .f32⟩
  | .hbm, ⟨5, _⟩ => ⟨S_, .f32⟩
  | .hbm, ⟨6, _⟩ => ⟨S256x4096, .f32⟩
  | .hbm, ⟨7, _⟩ => ⟨S_, .f32⟩
  | .hbm, ⟨8, _⟩ => ⟨S256x4096, .f32⟩
  | .hbm, ⟨9, _⟩ => ⟨S256x4096, .i1⟩
  | .hbm, ⟨10, _⟩ => ⟨S256x1x4096, .i1⟩
  | .hbm, ⟨11, _⟩ => ⟨S256x1x4096, .f32⟩
  | .hbm, ⟨12, _⟩ => ⟨S256x64x4096, .f32⟩
  | .hbm, ⟨13, _⟩ => ⟨S256x64x4096, .f32⟩
  | .hbm, ⟨14, _⟩ => ⟨S256x64x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S16384x4096_S256x64x4096 : S16384x4096.ShapeCasts S256x64x4096
  reducesTo_S256x64x4096_S256x4096_d1 : S256x64x4096.ReducesTo [1] S256x4096
  h_S_ : 0 < S_.numel
  bcast_S_S256x4096 : S_.BroadcastsInDim S256x4096 (![] : Fin 0 → Fin S256x4096.rank)
  bcast_S256x4096_S256x1x4096_0_2 : S256x4096.BroadcastsInDim S256x1x4096 (![0, 2] : Fin 2 → Fin S256x1x4096.rank)
  bcast_S256x1x4096_S256x64x4096_0_1_2 : S256x1x4096.BroadcastsInDim S256x64x4096 (![0, 1, 2] : Fin 3 → Fin S256x64x4096.rank)
  shapeCasts_S256x64x4096_S16384x4096 : S256x64x4096.ShapeCasts S16384x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S256x64x4096_S4096x4096_S256x64x4096_2_1_01_0_n_n_wf : DotDims.WF S256x64x4096 S4096x4096 S256x64x4096 [2] [1] [0, 1] [0] [] []

variable [Facts₀]

def dot_S256x64x4096_S4096x4096_S256x64x4096_2_1_01_0_n_n : DotDims S256x64x4096 S4096x4096 S256x64x4096 where
  lhsContracting := [2]
  rhsContracting := [1]
  lhsNonContracting := [0, 1]
  rhsNonContracting := [0]
  lhsBatch := []
  rhsBatch := []
  wf := dot_S256x64x4096_S4096x4096_S256x64x4096_2_1_01_0_n_n_wf

class Facts : Prop extends Facts₀ where

variable [Facts]
-- ==== Proof.MaskedLinear.lean ====
/-
  The function both programs compute, over the extended reals.

  The 16384 rows of `x` come in 256 tiles of 64 consecutive rows. In a tile, column `k` is ACTIVE when the largest
  magnitude |x| among the tile's 64 entries of that column — a maximum taken from −∞ — is strictly above the
  threshold, the f32 value nearest 10⁻⁶ (one and the same word in both programs, so it is never evaluated). The
  result at row `r`, output column `o` is

      Σ_k (x[r, k] · active(tile of r, k)) · w[o, k]  +  bias[o],

  the activity being the number 1 or 0. Nothing here needs the entries to be finite: both programs form the same
  products in the same order and add them over the same 4096 channels.
-/
import Idealize.ShloMosaic.PureOps.Ideal
import Idealize.ShloMosaic.Lib.ValueIdx

noncomputable section

namespace Cert.MaskedLinear

open Idealize.ShloMosaic Idealize.ShloMosaic.ValueIdx

/-- Row `b` of tile `t`: tiles are runs of 64 consecutive rows. -/
abbrev tileRow (t : Fin 256) (b : Fin 64) : Fin 16384 := ⟨t.val * 64 + b.val, by have := t.isLt; have := b.isLt; omega⟩

/-- The tile a row lies in. -/
abbrev tileOf (r : Fin 16384) : Fin 256 := ⟨r.val / 64, by have := r.isLt; omega⟩

/-- A row of a tile lies in that tile. -/
theorem tileOf_tileRow (t : Fin 256) (b : Fin 64) : tileOf (tileRow t b) = t :=
  Fin.ext (by show (t.val * 64 + b.val) / 64 = t.val; have := b.isLt; omega)

/-- The largest magnitude among a tile's 64 entries of one column, the maximum starting from −∞. -/
def colMax (col : Fin 64 → EReal) : EReal :=
  (Finset.univ : Finset (Fin 64)).fold max (Ideal.ofBits .f32 0xFF800000#32) (fun b => FloatOps.absf (F := Ideal) (φ := .f32) (col b))

/-- The column's activity as a number: 1 when its largest magnitude exceeds the threshold, 0 otherwise. -/
def active (col : Fin 64 → EReal) : EReal :=
  FloatOps.uitofp (F := Ideal) .f32 (FloatOps.cmpf (F := Ideal) (φ := .f32) .ogt (colMax col) (Ideal.ofBits .f32 0x358637BD#32))

/-- One entry of the result from the data it depends on: the row's entries `xrow`, for each channel the 64 entries
    `col k` of the row's tile in that channel, the weight row `wrow` of the output column and its bias `bo`. -/
def entry (xrow : Fin 4096 → EReal) (col : Fin 4096 → Fin 64 → EReal) (wrow : Fin 4096 → EReal) (bo : EReal) : EReal :=
  (∑ k : Fin 4096, (xrow k * active (col k)) * wrow k) + bo

/-- The whole result array as one function of the three argument arrays, index by index. -/
def result (x : (⟨2, ![16384, 4096]⟩ : Shape).Idx → EReal) (w : (⟨2, ![4096, 4096]⟩ : Shape).Idx → EReal)
    (bias : (⟨1, ![4096]⟩ : Shape).Idx → EReal) : (⟨2, ![16384, 4096]⟩ : Shape).Idx → EReal := fun i =>
  entry (fun k => x (ix2 (i 0) k)) (fun k b => x (ix2 (tileRow (tileOf (i 0)) b) k)) (fun k => w (ix2 (i 1) k)) (bias (ix1 (i 1)))

end Cert.MaskedLinear

end
-- ==== Proof.KernelBlock.lean ====
/-
  One block of the kernel, read at an index.

  At a grid point the body holds a 64-row block `x0` of `x` (all 4096 channels), the whole weight matrix `x1` and the
  whole bias `x2`, and stores one 64 × 4096 block. Its arithmetic, entry by entry: the column maxima of |x0| over the
  block's 64 rows, from −∞; the comparison with the threshold, widened to a word and converted to a number (1 or 0);
  that row of activities broadcast down the 64 rows and multiplied into `x0`; a contraction of the channel axis
  against the channel axis of the weights into a zero accumulator; the bias row broadcast down the rows and added.
  Changes of float format are the identity on the extended reals. So the entry at (p, q) is

      Σ_k (x0[p,k] · activity of channel k in the block) · x1[q,k]  +  x2[q],

  the specification's `entry` of the block's own data (`block_entry`); and when the three blocks are rows
  64t … 64t+63 of `X`, the whole of `W` and the whole of `B`, it is the masked-linear result at (64t + p, q)
  (`block_is_result`), because row 64t + p lies in tile t.
-/
import proofs.«109269_j88064009437933_1_alg».proof.Proof.Gen.KernelIdeal.Skeleton
import proofs.«109269_j88064009437933_1_alg».proof.Proof.MaskedLinear
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.Hand

open Idealize.ShloMosaic Idealize.ShloMosaic.ValueIdx Cert.KernelIdeal Cert.KernelIdeal.Gen Cert.MaskedLinear

/-- Over channel k of the reduced row, the source index with row b is (b, k). -/
theorem lift_col (h : S64x4096.Reduces [0] S4096) (k : Fin 4096) (b : Fin 64) :
    h.lift (ix1 k) b = ix2 b k := by
  funext a
  apply Fin.ext
  match a with
  | ⟨0, _⟩ => rfl
  | ⟨1, _⟩ => rfl

/-- The block's activity row at channel k: the bit "largest |x0| of the column, from −∞, exceeds the threshold",
    widened to a word and converted signed — which is the bit converted unsigned, the number 1 or 0. -/
theorem mask_at (x0 : FVec Ideal S64x4096 .f32) (hr : S64x4096.Reduces [0] S4096) (hφ : FKind.Formats .f32)
    (hacc : (0xFF800000#32 : BitVec 32) = FKind.maximumf.neutral .f32 hφ) (h32 : 1 < 32) (k : Fin 4096) :
    (sitofp .f32 (extui 32 (cmpf .ogt (multiReduction (F := Ideal) .maximumf [0] S4096 (absf (F := Ideal) x0) 0xFF800000#32 hr hφ hacc)
        (broadcast S4096 (Scalar.ofBits (F := Ideal) .f32 0x358637BD#32))) h32) : FVec Ideal S4096 .f32) (ix1 k)
      = active (fun b => x0 (ix2 b k)) := by
  rw [sitofp_extui_eq_uitofp]
  show FloatOps.uitofp .f32 (FloatOps.cmpf .ogt (multiReduction (F := Ideal) .maximumf [0] S4096 (absf (F := Ideal) x0) 0xFF800000#32 hr hφ hacc (ix1 k)) _) = _
  rw [Ideal.multiReduction_maximumf_single]
  have e : (absf (F := Ideal) x0 ∘ hr.lift (ix1 k)) = fun b => FloatOps.absf (F := Ideal) (φ := .f32) (x0 (ix2 b k)) :=
    funext fun b => congrArg (fun j => FloatOps.absf (F := Ideal) (φ := .f32) (x0 j)) (lift_col hr k b)
  rw [e]
  rfl

/-- The bias as one row broadcast down the 64 rows reads, at (p, q), the bias at q. -/
theorem bias_at (x2 : FVec Ideal S4096 .f32) (hc : S4096.ShapeCasts S1x4096) (hb : S1x4096.Broadcasts S64x4096)
    (p : Fin 64) (q : Fin 4096) :
    broadcastTo S64x4096 (shapeCast S1x4096 x2 hc) hb (ix2 p q) = x2 (ix1 q) := by
  rw [broadcastTo_1b_ab_apply, shapeCast_a_1a_apply]

local notation "D" => dot_S64x4096_S4096x4096_S64x4096_1_1_0_0_n_n

/-- The contraction's operand indices at result index i and contraction index κ: the left operand is read at
    (i 0, κ), the right at (i 1, κ) — both operands contract their channel axis. -/
theorem lhs0 (i : S64x4096.Idx) (κ : (D).contr.Idx) : ((D).lhsIdx i κ 0).val = (i 0).val := by
  unfold DotDims.lhsIdx
  rw [dif_neg (show ¬(0 : Fin S64x4096.rank) ∈ (D).lhsBatch by decide), dif_pos (show (0 : Fin S64x4096.rank) ∈ (D).lhsNonContracting by decide)]
  rfl
theorem lhs1 (i : S64x4096.Idx) (κ : (D).contr.Idx) : ((D).lhsIdx i κ 1).val = (κ ⟨0, by decide⟩).val :=
  (D).lhsIdx_val_of_single rfl i κ
theorem rhs0 (i : S64x4096.Idx) (κ : (D).contr.Idx) : ((D).rhsIdx i κ 0).val = (i 1).val := by
  unfold DotDims.rhsIdx
  rw [dif_neg (show ¬(0 : Fin S4096x4096.rank) ∈ (D).rhsBatch by decide), dif_pos (show (0 : Fin S4096x4096.rank) ∈ (D).rhsNonContracting by decide)]
  rfl
theorem rhs1 (i : S64x4096.Idx) (κ : (D).contr.Idx) : ((D).rhsIdx i κ 1).val = (κ ⟨0, by decide⟩).val :=
  (D).rhsIdx_val_of_single rfl i κ

/-- The matrix product into the zero accumulator, at (p, q): the sum over the 4096 channels of l[p,k] · r[q,k]. -/
theorem dot_at (l : FVec Ideal S64x4096 .bf16) (r : FVec Ideal S4096x4096 .bf16) (p : Fin 64) (q : Fin 4096) :
    matmul (F := Ideal) (D) none l r (constant S64x4096 .f32 0x00000000#32) (ix2 p q) = ∑ k : Fin 4096, l (ix2 p k) * r (ix2 q k) := by
  simp only [matmul]
  rw [Ideal.matmul_constant_zero_apply, ← Equiv.sum_comp (contrEquiv1 (D) 4096 rfl rfl).symm]
  refine Finset.sum_congr rfl fun k _ => ?_
  have hk := contrEquiv1_symm_val (D) 4096 rfl rfl k
  have el : (D).lhsIdx (ix2 p q) ((contrEquiv1 (D) 4096 rfl rfl).symm k) = ix2 p k := funext fun a => Fin.ext (by
    match a with
    | ⟨0, _⟩ => exact lhs0 _ _
    | ⟨1, _⟩ => exact (lhs1 _ _).trans hk)
  have er : (D).rhsIdx (ix2 p q) ((contrEquiv1 (D) 4096 rfl rfl).symm k) = ix2 q k := funext fun a => Fin.ext (by
    match a with
    | ⟨0, _⟩ => exact rhs0 _ _
    | ⟨1, _⟩ => exact (rhs1 _ _).trans hk)
  rw [el, er]

/-- The body's stored value at (p, q), as the specification's `entry` of the block's own data: the row p of `x0`, for
    each channel the block's 64 entries of it, the row q of the weights and the bias at q. -/
theorem block_entry (x0 : Vec Ideal S64x4096 .f32) (x1 : Vec Ideal S4096x4096 .bf16) (x2 : Vec Ideal S4096 .f32)
    (p : Fin 64) (q : Fin 4096) :
    k0_pay1 (F := Ideal) x0 x1 x2 (ix2 p q)
      = entry (fun k => x0 (ix2 p k)) (fun k b => x0 (ix2 b k)) (fun k => x1 (ix2 q k)) (x2 (ix1 q)) := by
  unfold k0_pay1 entry
  dsimp only
  rw [addf_apply, bias_at, dot_at]
  refine congrArg (· + x2 (ix1 q)) (Finset.sum_congr rfl fun k _ => ?_)
  rw [truncf_apply, mulf_apply, shapeCast_self, broadcastTo_1b_ab_apply, shapeCast_a_1a_apply]
  exact congrArg (fun a => x0 (ix2 p k) * a * x1 (ix2 q k)) (mask_at x0 _ _ _ _ k)

/-- When the three blocks are rows 64t … 64t+63 of `X`, the whole of `W` and the whole of `B`, the body's stored value
    at the block index y is the masked-linear result at the array index i with i₀ = 64t + y₀, i₁ = y₁: the row lies in
    tile t, whose 64 rows are exactly the block's. -/
theorem block_is_result (X : S16384x4096.Idx → EReal) (W : S4096x4096.Idx → EReal) (B : S4096.Idx → EReal)
    (x0 : Vec Ideal S64x4096 .f32) (x1 : Vec Ideal S4096x4096 .bf16) (x2 : Vec Ideal S4096 .f32) (t : Fin 256)
    (h0 : ∀ (p : Fin 64) (k : Fin 4096), x0 (ix2 p k) = X (ix2 (tileRow t p) k))
    (h1 : ∀ (q k : Fin 4096), x1 (ix2 q k) = W (ix2 q k))
    (h2 : ∀ q : Fin 4096, x2 (ix1 q) = B (ix1 q))
    (y : S64x4096.Idx) (i : S16384x4096.Idx) (hi0 : (i 0).val = t.val * 64 + (y 0).val) (hi1 : (i 1).val = (y 1).val) :
    k0_pay1 (F := Ideal) x0 x1 x2 y = result X W B i := by
  obtain ⟨p, q, rfl⟩ : ∃ (p : Fin 64) (q : Fin 4096), y = ix2 p q := ⟨y 0, y 1, eq_ix2 y⟩
  obtain rfl : i = ix2 (tileRow t p) q := funext fun a => Fin.ext (by
    match a with
    | ⟨0, _⟩ => exact hi0
    | ⟨1, _⟩ => exact hi1)
  rw [block_entry]
  unfold result
  show entry _ _ _ _ = entry (fun k => X (ix2 (tileRow t p) k)) (fun k b => X (ix2 (tileRow (tileOf (tileRow t p)) b) k))
    (fun k => W (ix2 q k)) (B (ix1 q))
  rw [tileOf_tileRow]
  simp only [h0, h1, h2]

end Cert.KernelIdeal.Hand

end
-- ==== Proof.KernelArray.lean ====
/-
  From the kernel's blocks to its whole result array.

  Grid point t (of 256) stages rows 64t … 64t+63 of `x` with all 4096 channels, the whole weight matrix — the array the
  host wrote before the call by changing the weights' float format, which on the extended reals changes nothing — and the
  whole bias, and writes back rows 64t … 64t+63 of the result. By the block lemma what it writes back is the
  masked-linear result read through that rectangle (`flushed_eq`); the 256 rectangles cover the array (row r is in the
  rectangle of point r / 64), so the array ends holding the masked-linear result of the three arguments (`final`), and
  the kernel's run ends there with the arguments unchanged (`run`).
-/
import proofs.«109269_j88064009437933_1_alg».proof.Proof.Gen.KernelIdeal.Value
import proofs.«109269_j88064009437933_1_alg».proof.Proof.KernelBlock
import Idealize.ShloMosaic.Lib.Pipeline.Value
import Idealize.ShloMosaic.Lib.StableHlo.Run

noncomputable section

namespace Cert.KernelIdeal.Hand

open Idealize.ShloMosaic Idealize.ShloMosaic.TcCoe Idealize.SL.Sem Idealize.ShloMosaic.ValueIdx
open Cert.KernelIdeal Cert.KernelIdeal.Gen Cert.MaskedLinear
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the 256 grid points: the blocks of `x` and of the result move down the rows with the
    point, one block per point; the weights' and the bias's one block stays put. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A grid point is below 256. -/
theorem point_lt (t : Fin cfg0.N) : t.val < 256 :=
  Nat.lt_of_lt_of_eq t.isLt (show cfg0.N = 256 from N_0)

/-- The weight array as the region finds it: the host has changed the weights' float format, entry by entry the same
    extended real. -/
theorem weights_found (c : Dev nD) (i : S4096x4096.Idx) :
    (V m c main_v0 : S4096x4096.Idx → Elt Ideal .bf16) i = (m ((c : Thread nD τ).loc main_arg1) : S4096x4096.Idx → Elt Ideal .f32) i := by
  have e : (V m c main_v0 : S4096x4096.Idx → Elt Ideal .bf16)
      = truncf (F := Ideal) .bf16 (m ((c : Thread nD τ).loc main_arg1) : FVec Ideal S4096x4096 .f32) Facts₀.bitsLt_bf16_f32 := by
    dsimp only [Gen.V, Gen.hostOps0]; after_results
  rw [e]
  rfl

/-- The block of `x` at point t is rows 64t … 64t+63. -/
theorem xblock_apply (c : Dev nD) (t : Fin cfg0.N) (y : S64x4096.Idx) (i : S16384x4096.Idx)
    (h0 : (i 0).val = t.val * 64 + (y 0).val) (h1 : (i 1).val = (y 1).val) :
    (iblk m c 0 t : Vec Ideal S64x4096 .f32) y = (m ((c : Thread nD τ).loc main_arg0) : S16384x4096.Idx → Elt Ideal .f32) i := by
  obtain ⟨e0, e1, -⟩ := block_indices t
  unfold iblk
  rw [View.read_apply]
  show V m c main_arg0 _ = m (c.tc.loc main_arg0) _
  rw [V_main_arg0]
  congr 1
  funext a
  apply Fin.ext
  match a with
  | ⟨0, _⟩ => show win0_0.index t 0 * 64 + 1 * (y 0).val = (i 0).val; rw [e0, h0]; omega
  | ⟨1, _⟩ => show win0_0.index t 1 * 4096 + 1 * (y 1).val = (i 1).val; rw [e1, h1]; omega

/-- The block of the weights at any point is the whole array the region found. -/
theorem wblock_apply (c : Dev nD) (t : Fin cfg0.N) (y : S4096x4096.Idx) :
    (iblk m c 1 t : Vec Ideal S4096x4096 .bf16) y = (m ((c : Thread nD τ).loc main_arg1) : S4096x4096.Idx → Elt Ideal .f32) y := by
  obtain ⟨-, -, e0, e1, -⟩ := block_indices t
  unfold iblk
  rw [View.read_apply]
  show V m c main_v0 _ = _
  rw [← weights_found m c y]
  congr 1
  funext a
  apply Fin.ext
  match a with
  | ⟨0, _⟩ => show win0_1.index t 0 * 4096 + 1 * (y 0).val = (y 0).val; rw [e0]; omega
  | ⟨1, _⟩ => show win0_1.index t 1 * 4096 + 1 * (y 1).val = (y 1).val; rw [e1]; omega

/-- The block of the bias at any point is the whole bias. -/
theorem bblock_apply (c : Dev nD) (t : Fin cfg0.N) (y : S4096.Idx) :
    (iblk m c 2 t : Vec Ideal S4096 .f32) y = (m ((c : Thread nD τ).loc main_arg2) : S4096.Idx → Elt Ideal .f32) y := by
  obtain ⟨-, -, -, -, e0, -⟩ := block_indices t
  unfold iblk
  rw [View.read_apply]
  show V m c main_arg2 _ = m (c.tc.loc main_arg2) _
  rw [V_main_arg2]
  congr 1
  funext a
  apply Fin.ext
  match a with
  | ⟨0, _⟩ => show win0_2.index t 0 * 4096 + 1 * (y 0).val = (y 0).val; rw [e0]; omega

/-- The kernel's result array as a function of its three arguments. -/
abbrev kernelResult (c : Dev nD) : Buf (Elt Ideal) ((c : Thread nD τ).loc main_v1) :=
  result (m ((c : Thread nD τ).loc main_arg0)) (m ((c : Thread nD τ).loc main_arg1)) (m ((c : Thread nD τ).loc main_arg2))

/-- What point t writes back is the masked-linear result read through the point's rectangle of rows. -/
theorem flushed_eq (c : Dev nD) (t : Fin cfg0.N) :
    (dats m 0 c).flushed 3 t = ((cfg0.win 3).blk t).view.read (Elt Ideal) (kernelResult m c) := by
  obtain ⟨-, -, -, -, -, e0, e1⟩ := block_indices t
  rw [Cert.KernelIdeal.Value.flushed3]
  unfold out0_3
  rw [View.canon_unit_zero zero2]
  simp only [View.ld_unit_zero (S := S64x4096) zero2, View.ld_unit_zero (S := S4096x4096) zero2, View.ld_unit_zero (S := S4096) zero1]
  funext j
  rw [View.read_apply]
  show k0_pay1 (F := Ideal) (iblk m c 0 t) (iblk m c 1 t) (iblk m c 2 t) j = _
  refine block_is_result _ _ _ _ _ _ ⟨t.val, point_lt t⟩
    (fun p k => xblock_apply m c t (ix2 p k) (ix2 (tileRow ⟨t.val, point_lt t⟩ p) k) rfl rfl)
    (fun q k => wblock_apply m c t (ix2 q k)) (fun q => bblock_apply m c t (ix1 q)) j _ ?_ ?_
  · show win0_3.index t 0 * 64 + 1 * (j 0).val = t.val * 64 + (j 0).val; rw [e0]; omega
  · show win0_3.index t 1 * 4096 + 1 * (j 1).val = (j 1).val; rw [e1]; omega

/-- An index of the array is in point t's rectangle iff each coordinate is in the rectangle's range on its axis. -/
theorem mem_block (t : Fin cfg0.N) (i : S16384x4096.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v1).slice (win0_3.rect t)).set ↔ _
  rw [View.set_slice_whole, Rect.mem_set_unit]
  exact Iff.rfl

/-- Every index of the result array is in some point's rectangle: row r in that of point r / 64. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  refine ⟨⟨(i 0).val / 64, by rw [hN]; omega⟩, flush0_3 _, ?_⟩
  obtain ⟨-, -, -, -, -, e0, e1⟩ := block_indices ⟨(i 0).val / 64, by rw [hN]; omega⟩
  rw [mem_block]
  intro a
  match a with
  | ⟨0, _⟩ =>
    show win0_3.index _ 0 * 64 ≤ (i 0).val ∧ (i 0).val < win0_3.index _ 0 * 64 + 64
    rw [e0]; show (i 0).val / 64 * 64 ≤ (i 0).val ∧ (i 0).val < (i 0).val / 64 * 64 + 64; omega
  | ⟨1, _⟩ =>
    show win0_3.index _ 1 * 4096 ≤ (i 1).val ∧ (i 1).val < win0_3.index _ 1 * 4096 + 4096
    rw [e1]; omega

/-- The result array after the run is the masked-linear result of the three arguments. -/
theorem final (c : Dev nD) : (dats m 0 c).arrAt 3 cfg0.N = kernelResult m c :=
  (dats m 0 c).arrAt_eq_of_cover 3 (kernelResult m c) (fun t _ => flushed_eq m c t) covered

/-- The kernel's run: it terminates with the result array at the masked-linear result, the arguments unchanged. -/
theorem run : θ_run defs (onTc (τ := τ) (main (F := Ideal))) ⟨m, fun _ => 0, ρ⟩ fun r => ∀ c : Dev nD,
      r.2.mem ((c : Thread nD τ).loc main_v1) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.ReferenceValue.lean ====
/-
  The reference's result is the masked-linear function of its arguments.

  The reference reshapes `x` to [256, 64, 4096] (tile, row in tile, channel), takes the column maxima of |x| over the
  middle axis, compares them with the threshold, converts the bit to a number, multiplies it back into the reshaped
  `x`, contracts the channel axis against `w`'s second axis, reshapes back to [16384, 4096] and adds the bias row.
  Read at an index (r, o): the reshapes send row r to (r / 64, r % 64) and back, so the entry is the sum over channels
  k of (x[r,k] · activity of channel k in tile r / 64) · w[o,k], plus bias[o] — the specification's `entry`.
-/
import proofs.«109269_j88064009437933_1_alg».proof.Proof.Gen.ReferenceIdeal.Read
import proofs.«109269_j88064009437933_1_alg».proof.Proof.MaskedLinear
import Idealize.ShloMosaic.PureOps.Ideal.Laws

noncomputable section

namespace Cert.ReferenceIdeal.Hand

open Idealize.ShloMosaic Idealize.ShloMosaic.ValueIdx Cert.ReferenceIdeal Cert.ReferenceIdeal.Read Cert.MaskedLinear

/-- The reduction over the middle axis of [256, 64, 4096] leaves [256, 4096]. -/
theorem reduces_mid : S256x64x4096.Reduces [1] S256x4096 := by decide

/-- Over the result index (t, k), the source index with row-in-tile b is (t, b, k); the first reshape reads it at
    row t·64 + b of `x`, channel k. -/
theorem lifted_row (t : Fin 256) (k : Fin 4096) (b : Fin 64) :
    idx_main_v0 (reduces_mid.lift (ix2 t k) b) = ix2 (tileRow t b) k := by
  funext a
  apply Fin.ext
  have ht := t.isLt; have hk := k.isLt; have hb := b.isLt
  match a with
  | ⟨0, _⟩ => show ((t.val * 64 + b.val) * 4096 + k.val) / 4096 = t.val * 64 + b.val; omega
  | ⟨1, _⟩ => show ((t.val * 64 + b.val) * 4096 + k.val) % 4096 = k.val; omega

/-- The reference's column maxima: at (t, k) the largest |x| over the 64 rows of tile t in channel k, from −∞. -/
theorem colmax_at (x0 : (⟨S16384x4096, .f32⟩ : BufTy).Contents (Elt Ideal)) (t : Fin 256) (k : Fin 4096) :
    val_main_v2 (F := Ideal) x0 (ix2 t k) = colMax (fun b => x0 (ix2 (tileRow t b) k)) := by
  unfold val_main_v2 colMax
  rw [Host.reduce_eq_fold_single FloatOps.maximumf _ _ _ reduces_mid _ _]
  have e : (val_main_v1 (F := Ideal) x0 ∘ reduces_mid.lift (ix2 t k))
      = fun b => FloatOps.absf (F := Ideal) (φ := .f32) (x0 (ix2 (tileRow t b) k)) := funext fun b =>
    (congrArg (FloatOps.hostAbsf (F := Ideal) (φ := .f32)) (val_main_v0_apply (F := Ideal) x0 (reduces_mid.lift (ix2 t k) b))).trans
      (congrArg (fun j => FloatOps.absf (F := Ideal) (φ := .f32) (x0 j)) (lifted_row t k b))
  rw [e]
  rfl

/-- The first reshape reads (t, b, k) at row t·64 + b of `x`, channel k. -/
theorem reshaped_row (t : Fin 256) (b : Fin 64) (k : Fin 4096) : idx_main_v0 (ix3 t b k) = ix2 (tileRow t b) k := by
  funext a
  apply Fin.ext
  have ht := t.isLt; have hk := k.isLt; have hb := b.isLt
  match a with
  | ⟨0, _⟩ => show ((t.val * 64 + b.val) * 4096 + k.val) / 4096 = t.val * 64 + b.val; omega
  | ⟨1, _⟩ => show ((t.val * 64 + b.val) * 4096 + k.val) % 4096 = k.val; omega

/-- The two broadcasts of the activity read (t, b, k) at (t, k): the activity does not depend on the row in the tile. -/
theorem mask_index (t : Fin 256) (b : Fin 64) (k : Fin 4096) : idx_main_v5 (idx_main_v7 (ix3 t b k)) = ix2 t k := by
  funext a
  apply Fin.ext
  match a with
  | ⟨0, _⟩ => rfl
  | ⟨1, _⟩ => rfl

/-- The masked operand of the contraction at (t, b, k): the entry of `x` times its channel's activity in tile t. -/
theorem masked_at (x0 : (⟨S16384x4096, .f32⟩ : BufTy).Contents (Elt Ideal)) (t : Fin 256) (b : Fin 64) (k : Fin 4096) :
    val_main_v8 (F := Ideal) x0 (ix3 t b k)
      = x0 (ix2 (tileRow t b) k) * active (fun b' => x0 (ix2 (tileRow t b') k)) := by
  rw [val_main_v8_apply, val_main_v0_apply, val_main_v7_apply, val_main_v6_apply, val_main_v5_apply, val_main_v4_apply,
    val_main_v3_apply, val_main_cst_0_apply, reshaped_row, mask_index, colmax_at]
  rfl

/-- The reference's last stage is the masked-linear function of its three arguments. -/
theorem result_eq (x0 : (⟨S16384x4096, .f32⟩ : BufTy).Contents (Elt Ideal)) (x1 : (⟨S4096x4096, .f32⟩ : BufTy).Contents (Elt Ideal))
    (x2 : (⟨S4096, .f32⟩ : BufTy).Contents (Elt Ideal)) :
    val_main_v13 (F := Ideal) x0 x1 x2 = result x0 x1 x2 := by
  funext i
  obtain ⟨r, o, rfl⟩ : ∃ (r : Fin 16384) (o : Fin 4096), i = ix2 r o := ⟨i 0, i 1, eq_ix2 i⟩
  have hr := r.isLt
  have ho := o.isLt
  have eb : idx_main_v11 (idx_main_v12 (ix2 r o)) = ix1 o := funext fun a => Fin.ext (by
    match a with
    | ⟨0, _⟩ => rfl)
  have el : ∀ k : Fin 4096, lidx_main_v9 (idx_main_v10 (ix2 r o)) k = ix3 (tileOf r) ⟨r.val % 64, by omega⟩ k :=
    fun k => funext fun a => Fin.ext (by
      match a with
      | ⟨0, _⟩ => show (r.val * 4096 + o.val) / 262144 = r.val / 64; omega
      | ⟨1, _⟩ => show (r.val * 4096 + o.val) / 4096 % 64 = r.val % 64; omega
      | ⟨2, _⟩ => rfl)
  have er : ∀ k : Fin 4096, ridx_main_v9 (idx_main_v10 (ix2 r o)) k = ix2 o k :=
    fun k => funext fun a => Fin.ext (by
      match a with
      | ⟨0, _⟩ => show (r.val * 4096 + o.val) % 4096 = o.val; omega
      | ⟨1, _⟩ => rfl)
  have et : tileRow (tileOf r) ⟨r.val % 64, by omega⟩ = r :=
    Fin.ext (by show r.val / 64 * 64 + r.val % 64 = r.val; omega)
  rw [val_main_v13_apply, val_main_v10_apply, val_main_v9_apply, val_main_v12_apply, val_main_v11_apply, eb]
  unfold result entry
  show _ + _ = _ + _
  refine congrArg (· + x2 (ix1 o)) (Finset.sum_congr rfl fun k _ => ?_)
  rw [el, er, masked_at, et]

end Cert.ReferenceIdeal.Hand

end
-- ==== Proof.lean ====
/- The proof of `Cert.Claim`: a tile-masked linear layer against its jnp reference, over the extended reals.

   Both programs compute, for row r of `x` (in the tile of 64 rows t = r / 64) and output column o,
       Σ_k (x[r,k] · active(t,k)) · w[o,k] + bias[o],
   where channel k is active in tile t when the largest |x| over the tile's 64 rows of that channel exceeds the f32
   value nearest 10⁻⁶ — the kernel one tile of rows per grid point with the weights narrowed to bf16 beforehand, the
   reference on the array reshaped to [256, 64, 4096]. Narrowing is the identity on the extended reals, both sides
   form the same products in the same order and sum them over the same channels, and the threshold is one word on both
   sides: no law of arithmetic is needed beyond re-indexing, and the finiteness precondition is never opened.

   Proof/MaskedLinear.lean states that function; Proof/KernelBlock.lean reads the kernel body's stored value at an
   index; Proof/KernelArray.lean carries it from the 256 blocks to the whole result array and gives the kernel's run;
   Proof/ReferenceValue.lean reads the reference's last stage at an index. The three frames are the generated frame of
   each kernel program and the reference's generated run with its result dropped; the idealization rewrote nothing, so
   `preserves` is `True`. -/
import proofs.«109269_j88064009437933_1_alg».proof.Defs
import proofs.«109269_j88064009437933_1_alg».proof.Proof.Gen.Kernel
import proofs.«109269_j88064009437933_1_alg».proof.Proof.Gen.Kernel.Skeleton
import proofs.«109269_j88064009437933_1_alg».proof.Proof.Gen.Kernel.Launch
import proofs.«109269_j88064009437933_1_alg».proof.Proof.Gen.Kernel.Points
import proofs.«109269_j88064009437933_1_alg».proof.Proof.Gen.Kernel.Frame
import proofs.«109269_j88064009437933_1_alg».proof.Proof.Gen.KernelIdeal
import proofs.«109269_j88064009437933_1_alg».proof.Proof.Gen.KernelIdeal.Skeleton
import proofs.«109269_j88064009437933_1_alg».proof.Proof.Gen.KernelIdeal.Launch
import proofs.«109269_j88064009437933_1_alg».proof.Proof.Gen.KernelIdeal.Points
import proofs.«109269_j88064009437933_1_alg».proof.Proof.Gen.KernelIdeal.Frame
import proofs.«109269_j88064009437933_1_alg».proof.Proof.Gen.ReferenceIdeal
import proofs.«109269_j88064009437933_1_alg».proof.Proof.Gen.KernelIdeal.Value
import proofs.«109269_j88064009437933_1_alg».proof.Proof.Gen.ReferenceIdeal.Run
import proofs.«109269_j88064009437933_1_alg».proof.Proof.Gen.ReferenceIdeal.Read
import proofs.«109269_j88064009437933_1_alg».proof.Proof.Gen.Pre_finite_inputs
import proofs.«109269_j88064009437933_1_alg».proof.Proof.KernelArray
import proofs.«109269_j88064009437933_1_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the three arguments the kernel's result array ends at the masked-linear function of them,
    and so does the reference's. -/
theorem algebraic : Cert.algebraic_KernelIdeal_ReferenceIdeal := by
  intro m ρ m' ρ' _ hagree
  refine ⟨fun c => Cert.KernelIdeal.Hand.kernelResult m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Hand.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
